-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768 : Shape := ⟨1, ![32768]⟩
abbrev S32768x64 : Shape := ⟨2, ![32768, 64]⟩
abbrev S64x16x2 : Shape := ⟨3, ![64, 16, 2]⟩
abbrev S64x64 : Shape := ⟨2, ![64, 64]⟩
abbrev S64 : Shape := ⟨1, ![64]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S64x16x2 : S_.BroadcastsInDim S64x16x2 (![] : Fin 0 → Fin S64x16x2.rank)
  reducesTo_S64x16x2_S_d0_1_2 : S64x16x2.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x16x2 .f32) (main_arg5 : FVec F S64x64 .f32) (main_arg6 : FVec F S64 .f32) (main_v13 : IVec S_ 1) (main_v16 : IVec S64x16x2 1) : IVec S_ 1 :=
  let main_c_5 : IVec S_ 1 := constantI S_ 1 1#1
  let main_v17 : IVec S_ 1 := (fun x v => Host.reduce IntOp.andi x v reducesTo_S64x16x2_S_d0_1_2 h_S_) main_v16 main_c_5
  let main_v18 : IVec S_ 1 := andi main_v13 main_v17
  let main_v19 : FVec F S64x16x2 .f32 := Host.absf main_arg4
  let main_cst_6 : FVec F S_ .f32 := constant S_ .f32 0x7F800000#32
  let main_v20 : FVec F S64x16x2 .f32 := broadcastInDim S64x16x2 ![] bcast_S_S64x16x2 main_cst_6
  let main_v21 : IVec S64x16x2 1 := cmpf .olt main_v19 main_v20
  let main_c_7 : IVec S_ 1 := constantI S_ 1 1#1
  let main_v22 : IVec S_ 1 := (fun x v => Host.reduce IntOp.andi x v reducesTo_S64x16x2_S_d0_1_2 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S32768 .f32) (main_arg1 : FVec F S32768x64 .f32) (main_arg2 : FVec F S64x16x2 .f32) (main_arg3 : FVec F S64x16x2 .f32) (main_arg4 : FVec F S64x16x2 .f32) (main_arg5 : FVec F S64x64 .f32) (main_arg6 : FVec F S64 .f32) : IVec S_ 1 :=
  let main_v0 : FVec F S32768 .f32 := Host.absf main_arg0
  let main_cst : FVec F S_ .f32 := constant S_ .f32 0x7F800000#32
  let main_v1 : FVec F S32768 .f32 := broadcastInDim S32768 ![] bcast_S_S32768 main_cst
  let main_v2 : IVec S32768 1 := cmpf .olt main_v0 main_v1
  let main_c : IVec S_ 1 := constantI S_ 1 1#1
  let main_v3 : IVec S_ 1 := (fun x v => Host.reduce IntOp.andi x v reducesTo_S32768_S_d0 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S64x16x2 .f32 := Host.absf main_arg2
  let main_cst_2 : FVec F S_ .f32 := constant S_ .f32 0x7F800000#32
  let main_v10 : FVec F S64x16x2 .f32 := broadcastInDim S64x16x2 ![] bcast_S_S64x16x2 main_cst_2
  let main_v11 : IVec S64x16x2 1 := cmpf .olt main_v9 main_v10
  let main_c_3 : IVec S_ 1 := constantI S_ 1 1#1
  let main_v12 : IVec S_ 1 := (fun x v => Host.reduce IntOp.andi x v reducesTo_S64x16x2_S_d0_1_2 h_S_) main_v11 main_c_3
  let main_v13 : IVec S_ 1 := andi main_v8 main_v12
  let main_v14 : FVec F S64x16x2 .f32 := Host.absf main_arg3
  let main_cst_4 : FVec F S_ .f32 := constant S_ .f32 0x7F800000#32
  let main_v15 : FVec F S64x16x2 .f32 := broadcastInDim S64x16x2 ![] bcast_S_S64x16x2 main_cst_4
  let main_v16 : IVec S64x16x2 1 := cmpf .olt main_v14 main_v15
  fn_part1 (F := F) main_arg4 main_arg5 main_arg6 main_v13 main_v16
-- ==== Kernel.lean ====
abbrev S32768 : Shape := ⟨1, ![32768]⟩
abbrev S32768x64 : Shape := ⟨2, ![32768, 64]⟩
abbrev S64x16x2 : Shape := ⟨3, ![64, 16, 2]⟩
abbrev S64x64 : Shape := ⟨2, ![64, 64]⟩
abbrev S64 : Shape := ⟨1, ![64]⟩
abbrev S32768x1 : Shape := ⟨2, ![32768, 1]⟩
abbrev S1x2048 : Shape := ⟨2, ![1, 2048]⟩
abbrev S1x64 : Shape := ⟨2, ![1, 64]⟩
abbrev S_ : Shape := ⟨0, ![]⟩
abbrev S32x1 : Shape := ⟨2, ![32, 1]⟩
abbrev S64x1x64x1 : Shape := ⟨4, ![64, 1, 64, 1]⟩
abbrev S1x32x1x1 : Shape := ⟨4, ![1, 32, 1, 1]⟩
abbrev S64x32x64x1 : Shape := ⟨4, ![64, 32, 64, 1]⟩
abbrev S2048x64 : Shape := ⟨2, ![2048, 64]⟩
abbrev S512x1 : Shape := ⟨2, ![512, 1]⟩
abbrev S512x64 : Shape := ⟨2, ![512, 64]⟩
abbrev S512x2048 : Shape := ⟨2, ![512, 2048]⟩

abbrev nBuf : Space → Nat
  | .hbm => 30
  | .vmem => 9
  | .smem => 0
  | _ => 0

abbrev bufTy : (tb : Table) → Fin (tcTables nBuf tb) → BufTy
  | .hbm, ⟨0, _⟩ => ⟨S32768, .f32⟩
  | .hbm, ⟨1, _⟩ => ⟨S32768x64, .f32⟩
  | .hbm, ⟨2, _⟩ => ⟨S64x16x2, .f32⟩
  | .hbm, ⟨3, _⟩ => ⟨S64x16x2, .f32⟩
  | .hbm, ⟨4, _⟩ => ⟨S64x16x2, .f32⟩
  | .hbm, ⟨5, _⟩ => ⟨S64x64, .f32⟩
  | .hbm, ⟨6, _⟩ => ⟨S64, .f32⟩
  | .hbm, ⟨7, _⟩ => ⟨S32768x1, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x64, .f32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S64x64, .f32⟩
  | .hbm, ⟨19, _⟩ => ⟨S_, .f32⟩
  | .hbm, ⟨20, _⟩ => ⟨S32x1, .f32⟩
  | .hbm, ⟨21, _⟩ => ⟨S64x1x64x1, .f32⟩
  | .hbm, ⟨22, _⟩ => ⟨S1x32x1x1, .f32⟩
  | .hbm, ⟨23, _⟩ => ⟨S64x32x64x1, .f32⟩
  | .hbm, ⟨24, _⟩ => ⟨S64x32x64x1, .f32⟩
  | .hbm, ⟨25, _⟩ => ⟨S64x32x64x1, .f32⟩
  | .hbm, ⟨26, _⟩ => ⟨S2048x64, .f32⟩
  | .hbm, ⟨27, _⟩ => ⟨S64x64, .f32⟩
  | .hbm, ⟨28, _⟩ => ⟨S2048x64, .f32⟩
  | .hbm, ⟨29, _⟩ => ⟨S32768x64, .f32⟩
  | .local _ .vmem, ⟨0, _⟩ => ⟨S512x1, .f32⟩
  | .local _ .vmem, ⟨1, _⟩ => ⟨S512x1, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x64, .f32⟩
  | .local _ .vmem, ⟨6, _⟩ => ⟨S1x64, .f32⟩
  | .local _ .vmem, ⟨7, _⟩ => ⟨S512x64, .f32⟩
  | .local _ .vmem, ⟨8, _⟩ => ⟨S512x64, .f32⟩
  | _, _ => ⟨S32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32768_S32768x1 : S32768.ShapeCasts S32768x1
  shapeCasts_S64x16x2_S1x2048 : S64x16x2.ShapeCasts S1x2048
  shapeCasts_S64_S1x64 : S64.ShapeCasts S1x64
  bcast_S_S64x64 : S_.BroadcastsInDim S64x64 (![] : Fin 0 → Fin S64x64.rank)
  bcast_S_S32x1 : S_.BroadcastsInDim S32x1 (![] : Fin 0 → Fin S32x1.rank)
  bcast_S64x64_S64x1x64x1_0_2 : S64x64.BroadcastsInDim S64x1x64x1 (![0, 2] : Fin 2 → Fin S64x1x64x1.rank)
  bcast_S32x1_S1x32x1x1_1_3 : S32x1.BroadcastsInDim S1x32x1x1 (![1, 3] : Fin 2 → Fin S1x32x1x1.rank)
  bcast_S64x1x64x1_S64x32x64x1_0_1_2_3 : S64x1x64x1.BroadcastsInDim S64x32x64x1 (![0, 1, 2, 3] : Fin 4 → Fin S64x32x64x1.rank)
  bcast_S1x32x1x1_S64x32x64x1_0_1_2_3 : S1x32x1x1.BroadcastsInDim S64x32x64x1 (![0, 1, 2, 3] : Fin 4 → Fin S64x32x64x1.rank)
  shapeCasts_S64x32x64x1_S2048x64 : S64x32x64x1.ShapeCasts S2048x64
  transposes_S64x64_S64x64_1_0 : S64x64.Transposes [1, 0] S64x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S2048x64_S64x64_S2048x64_1_0_0_1_n_n_wf : DotDims.WF S2048x64 S64x64 S2048x64 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S32768x1.size a
  hwx0_0 : ∀ i : grid0.Coords, EltTy.bits .f32 = 32 ∨ (Rect.block (s := S32768x1) S512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S2048x64.size a
  hwx0_4 : ∀ i : grid0.Coords, EltTy.bits .f32 = 32 ∨ (Rect.block (s := S2048x64) S2048x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S32768x64.size a
  hwx0_6 : ∀ i : grid0.Coords, EltTy.bits .f32 = 32 ∨ (Rect.block (s := S32768x64) S512x64.size (cc0_transform_6 i) (hinb0_6 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S2048x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768 : Shape := ⟨1, ![32768]⟩
abbrev S32768x64 : Shape := ⟨2, ![32768, 64]⟩
abbrev S64x16x2 : Shape := ⟨3, ![64, 16, 2]⟩
abbrev S64x64 : Shape := ⟨2, ![64, 64]⟩
abbrev S64 : Shape := ⟨1, ![64]⟩
abbrev S1x64x16x2 : Shape := ⟨4, ![1, 64, 16, 2]⟩
abbrev S32768x1x1x1 : Shape := ⟨4, ![32768, 1, 1, 1]⟩
abbrev S32768x64x16x2 : Shape := ⟨4, ![32768, 64, 16, 2]⟩
abbrev S_ : Shape := ⟨0, ![]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S32768, .f32⟩
  | .hbm, ⟨1, _⟩ => ⟨S32768x64, .f32⟩
  | .hbm, ⟨2, _⟩ => ⟨S64x16x2, .f32⟩
  | .hbm, ⟨3, _⟩ => ⟨S64x16x2, .f32⟩
  | .hbm, ⟨4, _⟩ => ⟨S64x16x2, .f32⟩
  | .hbm, ⟨5, _⟩ => ⟨S64x64, .f32⟩
  | .hbm, ⟨6, _⟩ => ⟨S64, .f32⟩
  | .hbm, ⟨7, _⟩ => ⟨S1x64x16x2, .f32⟩
  | .hbm, ⟨8, _⟩ => ⟨S32768x1x1x1, .f32⟩
  | .hbm, ⟨9, _⟩ => ⟨S32768x64x16x2, .f32⟩
  | .hbm, ⟨10, _⟩ => ⟨S32768x64x16x2, .f32⟩
  | .hbm, ⟨11, _⟩ => ⟨S32768x64x16x2, .f32⟩
  | .hbm, ⟨12, _⟩ => ⟨S1x64x16x2, .f32⟩
  | .hbm, ⟨13, _⟩ => ⟨S32768x64x16x2, .f32⟩
  | .hbm, ⟨14, _⟩ => ⟨S32768x64x16x2, .f32⟩
  | .hbm, ⟨15, _⟩ => ⟨S1x64x16x2, .f32⟩
  | .hbm, ⟨16, _⟩ => ⟨S32768x64x16x2, .f32⟩
  | .hbm, ⟨17, _⟩ => ⟨S32768x64x16x2, .f32⟩
  | .hbm, ⟨18, _⟩ => ⟨S32768x64x16x2, .f32⟩
  | .hbm, ⟨19, _⟩ => ⟨S_, .f32⟩
  | .hbm, ⟨20, _⟩ => ⟨S32768x64, .f32⟩
  | .hbm, ⟨21, _⟩ => ⟨S64x64, .f32⟩
  | .hbm, ⟨22, _⟩ => ⟨S32768x64, .f32⟩
  | .hbm, ⟨23, _⟩ => ⟨S1x64, .f32⟩
  | .hbm, ⟨24, _⟩ => ⟨S32768x64, .f32⟩
  | .hbm, ⟨25, _⟩ => ⟨S32768x64, .f32⟩
  | _, _ => ⟨S32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S64x16x2_S1x64x16x2_1_2_3 : S64x16x2.BroadcastsInDim S1x64x16x2 (![1, 2, 3] : Fin 3 → Fin S1x64x16x2.rank)
  bcast_S32768_S32768x1x1x1_0 : S32768.BroadcastsInDim S32768x1x1x1 (![0] : Fin 1 → Fin S32768x1x1x1.rank)
  bcast_S1x64x16x2_S32768x64x16x2_0_1_2_3 : S1x64x16x2.BroadcastsInDim S32768x64x16x2 (![0, 1, 2, 3] : Fin 4 → Fin S32768x64x16x2.rank)
  bcast_S32768x1x1x1_S32768x64x16x2_0_1_2_3 : S32768x1x1x1.BroadcastsInDim S32768x64x16x2 (![0, 1, 2, 3] : Fin 4 → Fin S32768x64x16x2.rank)
  reducesTo_S32768x64x16x2_S32768x64_d2_3 : S32768x64x16x2.ReducesTo [2, 3] S32768x64
  h_S_ : 0 < S_.numel
  transposes_S64x64_S64x64_1_0 : S64x64.Transposes [1, 0] S64x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x64_S64x64_S32768x64_1_0_0_1_n_n_wf : DotDims.WF S32768x64 S64x64 S32768x64 [1] [0] [0] [1] [] []

variable [Facts₀]

def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf

class Facts : Prop extends Facts₀ where

variable [Facts]
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.Spec.lean ====
/-
  The harmonic mixing layer, as one function of its arguments, and the law that joins its two arrangements.

  For a time point r and an output channel e the layer's value is

      out (r, e) = sum over d of ( sum over (h, c) of A (d,h,c) * cos (w (d,h,c) * s r + phi (d,h,c)) ) * W (e, d)  +  b e.

  One arrangement sums the 32 harmonics of each of the 64 systems first and then mixes the 64 group sums with W.
  The other keeps the 64 * 32 = 2048 harmonic terms in one row, multiplies term k by W (e, k / 32) and adds all 2048
  products. Term k = d * 32 + (h * 2 + c) belongs to system d, so the second is the first with each group sum
  distributed over its factor W (e, d). On the extended reals distributing a sum over a factor needs the summands
  not to be opposite infinities; here every summand and every factor is a real number.
-/
import Idealize.ShloMosaic.PureOps.Ideal
import Idealize.ShloMosaic.Lib.ValueIdx
import proofs.«118023_j77567109365841_1_alg».proof.Proof.LibChunkSum
import proofs.«118023_j77567109365841_1_alg».proof.Proof.LibRealValued

noncomputable section

namespace Cert.Harmonic

open Idealize.ShloMosaic Idealize.ShloMosaic.ValueIdx Cert.RealValued

/-- Position of system `d`'s harmonic `(h, c)` in a flattened row of 2048: `d * 32 + (h * 2 + c)`. -/
abbrev flat (d : Fin 64) (h : Fin 16) (c : Fin 2) : Fin 2048 :=
  ChunkSum.at_ (by decide : 64 * 32 = 2048) d (ChunkSum.at_ (by decide : 16 * 2 = 32) h c)

/-- The cosine of a real number is a real number. -/
theorem isReal_cos {x : EReal} (h : IsReal x) : IsReal (Ideal.cos x) := by
  obtain ⟨r, rfl⟩ := h
  exact ⟨Real.cos r, rfl⟩

/-- One harmonic term at time point `r`: amplitude times the cosine of frequency times time plus phase. -/
def term (s : (⟨1, ![32768]⟩ : Shape).Idx → EReal) (A phi w : (⟨3, ![64, 16, 2]⟩ : Shape).Idx → EReal)
    (r : Fin 32768) (d : Fin 64) (h : Fin 16) (c : Fin 2) : EReal :=
  A (ix3 d h c) * Ideal.cos (w (ix3 d h c) * s (ix1 r) + phi (ix3 d h c))

/-- A harmonic term of real arguments is a real number. -/
theorem isReal_term {s : (⟨1, ![32768]⟩ : Shape).Idx → EReal} {A phi w : (⟨3, ![64, 16, 2]⟩ : Shape).Idx → EReal}
    (hs : ∀ i, IsReal (s i)) (hA : ∀ i, IsReal (A i)) (hphi : ∀ i, IsReal (phi i)) (hw : ∀ i, IsReal (w i))
    (r : Fin 32768) (d : Fin 64) (h : Fin 16) (c : Fin 2) : IsReal (term s A phi w r d h c) :=
  (hA _).mul (isReal_cos (((hw _).mul (hs _)).add (hphi _)))

/-- The layer: per system the sum of its 16 * 2 harmonic terms, mixed by `W`, plus the bias. -/
def layer (s : (⟨1, ![32768]⟩ : Shape).Idx → EReal) (A phi w : (⟨3, ![64, 16, 2]⟩ : Shape).Idx → EReal)
    (W : (⟨2, ![64, 64]⟩ : Shape).Idx → EReal) (b : (⟨1, ![64]⟩ : Shape).Idx → EReal) :
    (⟨2, ![32768, 64]⟩ : Shape).Idx → EReal :=
  fun i => (∑ d : Fin 64, (∑ h : Fin 16, ∑ c : Fin 2, term s A phi w (i 0) d h c) * W (ix2 (i 1) d)) + b (ix1 (i 1))

/-- Two real numbers' sum times a real number, distributed. -/
theorem add_mul_of_isReal {a b w : EReal} (ha : IsReal a) (hb : IsReal b) (hw : IsReal w) :
    (a + b) * w = a * w + b * w := by
  obtain ⟨r, rfl⟩ := ha
  obtain ⟨t, rfl⟩ := hb
  obtain ⟨u, rfl⟩ := hw
  rw [← EReal.coe_add, ← EReal.coe_mul, ← EReal.coe_mul, ← EReal.coe_mul, ← EReal.coe_add, add_mul]

/-- A finite sum of real numbers times a real number is the sum of the products. -/
theorem sum_mul_of_isReal {ι : Type} (t : Finset ι) (x : ι → EReal) (w : EReal) (hx : ∀ i ∈ t, IsReal (x i))
    (hw : IsReal w) : (∑ i ∈ t, x i) * w = ∑ i ∈ t, x i * w := by
  classical
  induction t using Finset.induction_on with
  | empty => rw [Finset.sum_empty, Finset.sum_empty, zero_mul]
  | insert a t ha ih =>
    rw [Finset.sum_insert ha, Finset.sum_insert ha,
      add_mul_of_isReal (hx a (Finset.mem_insert_self a t))
        (isReal_sum t x fun i hi => hx i (Finset.mem_insert_of_mem hi)) hw,
      ih fun i hi => hx i (Finset.mem_insert_of_mem hi)]

/-- The 64-by-64 identity pattern, each entry times one, contracted with a row of `W`, picks that row's entry:
    every other product is zero times something, which is zero on the extended reals too. -/
theorem pick (W : Fin 64 → EReal) (d : Fin 64) :
    ∑ d' : Fin 64, ((if d = d' then (1 : EReal) else 0) * 1) * W d' = W d := by
  simp only [mul_one, ite_mul, one_mul, zero_mul, Finset.sum_ite_eq, Finset.mem_univ, if_true]

/-- THE LAW. A row of 2048 products, product `d * 32 + (h * 2 + c)` being harmonic term `(d, h, c)` times the mixing
    factor of system `d`, adds up to the 64 group sums each times its factor — when terms and factors are real numbers. -/
theorem flat_eq_grouped (a : Fin 64 → Fin 16 → Fin 2 → EReal) (W : Fin 64 → EReal)
    (ha : ∀ d h c, IsReal (a d h c)) (hW : ∀ d, IsReal (W d)) (f : Fin 2048 → EReal)
    (hf : ∀ d h c, f (flat d h c) = a d h c * W d) :
    ∑ k : Fin 2048, f k = ∑ d : Fin 64, (∑ h : Fin 16, ∑ c : Fin 2, a d h c) * W d := by
  rw [← ChunkSum.sum_chunks (by decide : 64 * 32 = 2048) f]
  refine Finset.sum_congr rfl fun d _ => ?_
  rw [← ChunkSum.sum_chunks (by decide : 16 * 2 = 32) (fun j => f (ChunkSum.at_ (by decide : 64 * 32 = 2048) d j))]
  rw [sum_mul_of_isReal _ _ _ (fun h _ => isReal_sum _ _ fun c _ => ha d h c) (hW d)]
  refine Finset.sum_congr rfl fun h _ => ?_
  rw [sum_mul_of_isReal _ _ _ (fun c _ => ha d h c) (hW d)]
  exact Finset.sum_congr rfl fun c _ => hf d h c

end Cert.Harmonic

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.HostSide.lean ====
/-
  What the kernel is handed: the arrays the host prepares before the launch, each read at an index.

  The time points become a [32768, 1] column; frequencies, phases and amplitudes, each [64, 16, 2], become [1, 2048]
  rows in which system d's harmonic (h, c) sits at position d * 32 + (h * 2 + c); the bias becomes a [1, 64] row.
  The mixing matrix handed to the kernel is the product of a [2048, 64] pattern with the transpose of W. The pattern
  is the Kronecker product of the 64-by-64 identity with a [32, 1] column of ones: its row d * 32 + j is row d of
  the identity. So row d * 32 + j of the product is row d of the transpose of W: entry (d * 32 + j, e) is W (e, d).
-/
import proofs.«118023_j77567109365841_1_alg».proof.Proof.Gen.KernelIdeal.Frame
import proofs.«118023_j77567109365841_1_alg».proof.Proof.Spec
import proofs.«118023_j77567109365841_1_alg».proof.Proof.LibColumnLayout
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Harmonic.Host

open Cert.KernelIdeal Cert.KernelIdeal.Gen Idealize.ShloMosaic Idealize.ShloMosaic.TcCoe Idealize.SL.Sem
open Idealize.ShloMosaic.StableHlo Idealize.ShloMosaic.ValueIdx Cert.Harmonic

/-! ## The flattened rows and the column -/

/-- A [64, 16, 2] array flattened to a [1, 2048] row reads, at position `flat d h c`, the array at `(d, h, c)`. -/
theorem row_flat {α : Type} (x : S64x16x2.Idx → α) (hc : S64x16x2.ShapeCasts S1x2048) (d : Fin 64) (h : Fin 16) (c : Fin 2) :
    shapeCast S1x2048 x hc (ix2 (0 : Fin 1) (flat d h c)) = x (ix3 d h c) :=
  shapeCast_apply x hc _ _ (by
    rw [Shape.rowMajor_val_three, Shape.rowMajor_val_two]
    show (d.val * 16 + h.val) * 2 + c.val = 0 * 2048 + (d.val * 32 + (h.val * 2 + c.val))
    omega)

/-! ## The mixing matrix handed to the kernel -/

/-- An entry of the identity pattern as the host builds it (row number plus zero compared with column number, the
    truth value converted to a float): one on the diagonal, zero off it. -/
theorem eye_entry (d k : Fin 64) :
    (((IntOp.cmpi .eq (IntOp.addi (BitVec.ofNat 32 d.val) 0#32) (BitVec.ofNat 32 k.val)).toNat : ℝ) : EReal)
      = if d = k then 1 else 0 := by
  by_cases h : d = k
  · subst h
    simp [IntOp.cmpi, IntOp.addi]
  · have hne : BitVec.ofNat 32 d.val ≠ BitVec.ofNat 32 k.val := by
      intro hh
      apply h
      apply Fin.ext
      have := congrArg BitVec.toNat hh
      simp only [BitVec.toNat_ofNat] at this
      have hd := d.isLt
      have hk := k.isLt
      omega
    simp [IntOp.cmpi, IntOp.addi, hne, h]

/-- The f32 pattern of 1.0 is the extended real one. -/
theorem one_f32 : Ideal.ofBits .f32 0x3F800000#32 = 1 := by
  simp [Ideal.ofBits, Ideal.ieee, -EReal.coe_mul]; norm_num

/-- The mixing matrix the kernel receives, as the host computes it from `W`. -/
def combOf (W : FVec Ideal S64x64 .f32) : FVec Ideal S2048x64 .f32 :=
  Host.dotGeneral (F := Ideal) dot_S2048x64_S64x64_S2048x64_1_0_0_1_n_n none
    (shapeCast S2048x64
      (mulf (F := Ideal) (φ := .f32)
        (broadcastInDim S64x32x64x1 ![0, 1, 2, 3] bcast_S64x1x64x1_S64x32x64x1_0_1_2_3
          (broadcastInDim S64x1x64x1 ![0, 2] bcast_S64x64_S64x1x64x1_0_2
            (uitofp (F := Ideal) .f32
              (cmpi .eq (addi (iotaInDim S64x64 32 0) (broadcastInDim S64x64 ![] bcast_S_S64x64 (constantI S_ 32 0#32)))
                (iotaInDim S64x64 32 1)))))
        (broadcastInDim S64x32x64x1 ![0, 1, 2, 3] bcast_S1x32x1x1_S64x32x64x1_0_1_2_3
          (broadcastInDim S1x32x1x1 ![1, 3] bcast_S32x1_S1x32x1x1_1_3
            (broadcastInDim S32x1 ![] bcast_S_S32x1 (constant (F := Ideal) S_ .f32 0x3F800000#32)))))
      shapeCasts_S64x32x64x1_S2048x64)
    (transpose S64x64 [1, 0] W transposes_S64x64_S64x64_1_0)

theorem lhs0 (i : S2048x64.Idx) (q : (dot_S2048x64_S64x64_S2048x64_1_0_0_1_n_n).contr.Idx) :
    ((dot_S2048x64_S64x64_S2048x64_1_0_0_1_n_n).lhsIdx i q 0).val = (i 0).val := by
  unfold DotDims.lhsIdx
  rw [dif_neg (show ¬(0 : Fin S2048x64.rank) ∈ (dot_S2048x64_S64x64_S2048x64_1_0_0_1_n_n).lhsBatch by decide),
    dif_pos (show (0 : Fin S2048x64.rank) ∈ (dot_S2048x64_S64x64_S2048x64_1_0_0_1_n_n).lhsNonContracting by decide)]
  rfl
theorem lhs1 (i : S2048x64.Idx) (q : (dot_S2048x64_S64x64_S2048x64_1_0_0_1_n_n).contr.Idx) :
    ((dot_S2048x64_S64x64_S2048x64_1_0_0_1_n_n).lhsIdx i q 1).val = (q ⟨0, by decide⟩).val :=
  (dot_S2048x64_S64x64_S2048x64_1_0_0_1_n_n).lhsIdx_val_of_single rfl i q
theorem rhs0 (i : S2048x64.Idx) (q : (dot_S2048x64_S64x64_S2048x64_1_0_0_1_n_n).contr.Idx) :
    ((dot_S2048x64_S64x64_S2048x64_1_0_0_1_n_n).rhsIdx i q 0).val = (q ⟨0, by decide⟩).val :=
  (dot_S2048x64_S64x64_S2048x64_1_0_0_1_n_n).rhsIdx_val_of_single rfl i q
theorem rhs1 (i : S2048x64.Idx) (q : (dot_S2048x64_S64x64_S2048x64_1_0_0_1_n_n).contr.Idx) :
    ((dot_S2048x64_S64x64_S2048x64_1_0_0_1_n_n).rhsIdx i q 1).val = (i 1).val := by
  unfold DotDims.rhsIdx
  rw [dif_neg (show ¬(1 : Fin S64x64.rank) ∈ (dot_S2048x64_S64x64_S2048x64_1_0_0_1_n_n).rhsBatch by decide),
    dif_pos (show (1 : Fin S64x64.rank) ∈ (dot_S2048x64_S64x64_S2048x64_1_0_0_1_n_n).rhsNonContracting by decide)]
  rfl

/-- The pattern: row `d * 32 + j`, column `k`, is the identity's entry `(d, k)` times one. -/
theorem pattern_apply (d : Fin 64) (j : Fin 32) (k : Fin 64) :
    shapeCast S2048x64
      (mulf (F := Ideal) (φ := .f32)
        (broadcastInDim S64x32x64x1 ![0, 1, 2, 3] bcast_S64x1x64x1_S64x32x64x1_0_1_2_3
          (broadcastInDim S64x1x64x1 ![0, 2] bcast_S64x64_S64x1x64x1_0_2
            (uitofp (F := Ideal) .f32
              (cmpi .eq (addi (iotaInDim S64x64 32 0) (broadcastInDim S64x64 ![] bcast_S_S64x64 (constantI S_ 32 0#32)))
                (iotaInDim S64x64 32 1)))))
        (broadcastInDim S64x32x64x1 ![0, 1, 2, 3] bcast_S1x32x1x1_S64x32x64x1_0_1_2_3
          (broadcastInDim S1x32x1x1 ![1, 3] bcast_S32x1_S1x32x1x1_1_3
            (broadcastInDim S32x1 ![] bcast_S_S32x1 (constant (F := Ideal) S_ .f32 0x3F800000#32)))))
      shapeCasts_S64x32x64x1_S2048x64 (ix2 (ChunkSum.at_ (by decide : 64 * 32 = 2048) d j) k)
    = (if d = k then (1 : EReal) else 0) * 1 := by
  rw [shapeCast_apply _ shapeCasts_S64x32x64x1_S2048x64 _ (ix4 d j k (0 : Fin 1)) (by
    rw [Shape.rowMajor_val_four, Shape.rowMajor_val_two]
    show ((d.val * 32 + j.val) * 64 + k.val) * 1 + 0 = (d.val * 32 + j.val) * 64 + k.val
    omega)]
  rw [mulf_apply]
  refine congrArg₂ (· * ·) ?_ ?_
  · rw [broadcastInDim_apply _ bcast_S64x1x64x1_S64x32x64x1_0_1_2_3 _ _ (ix4 d (0 : Fin 1) k (0 : Fin 1)) (fun a => by
        match a with
        | ⟨0, _⟩ => show d.val = if (64 : Nat) = 1 then 0 else d.val; rw [if_neg (by decide)]
        | ⟨1, _⟩ => show 0 = if (1 : Nat) = 1 then 0 else j.val; rw [if_pos rfl]
        | ⟨2, _⟩ => show k.val = if (64 : Nat) = 1 then 0 else k.val; rw [if_neg (by decide)]
        | ⟨3, _⟩ => show 0 = if (1 : Nat) = 1 then 0 else 0; rw [if_pos rfl]),
      broadcastInDim_apply _ bcast_S64x64_S64x1x64x1_0_2 _ _ (ix2 d k) (fun a => by
        match a with
        | ⟨0, _⟩ => show d.val = if (64 : Nat) = 1 then 0 else d.val; rw [if_neg (by decide)]
        | ⟨1, _⟩ => show k.val = if (64 : Nat) = 1 then 0 else k.val; rw [if_neg (by decide)])]
    exact eye_entry d k
  · exact one_f32

/-- Entry `(d * 32 + j, e)` of the mixing matrix the kernel receives is `W (e, d)`. -/
theorem combOf_apply (W : FVec Ideal S64x64 .f32) (d : Fin 64) (j : Fin 32) (e : Fin 64) :
    combOf W (ix2 (ChunkSum.at_ (by decide : 64 * 32 = 2048) d j) e) = W (ix2 e d) := by
  unfold combOf
  simp only [Host.dotGeneral]
  rw [Ideal.dotGeneral_apply, ← Equiv.sum_comp (contrEquiv1 dot_S2048x64_S64x64_S2048x64_1_0_0_1_n_n 64 rfl rfl).symm]
  rw [← pick (fun k => W (ix2 e k)) d]
  refine Finset.sum_congr rfl fun k _ => ?_
  have hk := contrEquiv1_symm_val dot_S2048x64_S64x64_S2048x64_1_0_0_1_n_n 64 rfl rfl k
  have el : (dot_S2048x64_S64x64_S2048x64_1_0_0_1_n_n).lhsIdx (ix2 (ChunkSum.at_ (by decide : 64 * 32 = 2048) d j) e)
      ((contrEquiv1 dot_S2048x64_S64x64_S2048x64_1_0_0_1_n_n 64 rfl rfl).symm k) = ix2 (ChunkSum.at_ (by decide : 64 * 32 = 2048) d j) k :=
    funext fun a => Fin.ext (by
      match a with
      | ⟨0, _⟩ => exact lhs0 _ _
      | ⟨1, _⟩ => exact (lhs1 _ _).trans hk)
  have er : (dot_S2048x64_S64x64_S2048x64_1_0_0_1_n_n).rhsIdx (ix2 (ChunkSum.at_ (by decide : 64 * 32 = 2048) d j) e)
      ((contrEquiv1 dot_S2048x64_S64x64_S2048x64_1_0_0_1_n_n 64 rfl rfl).symm k) = ix2 k e :=
    funext fun a => Fin.ext (by
      match a with
      | ⟨0, _⟩ => exact (rhs0 _ _).trans hk
      | ⟨1, _⟩ => exact rhs1 _ _)
  rw [el, er, pattern_apply d j k, transpose_ix2_apply]

/-! ## The arrays as the launch finds them -/

variable (m : (ℓ : Loc nD τ sig) → Buf (Elt Ideal) ℓ)

theorem V_s (c : Dev nD) : (V m c main_v0 : S32768x1.Idx → EReal)
    = shapeCast S32768x1 (m ((c : Thread nD τ).loc main_arg0)) shapeCasts_S32768_S32768x1 := by
  dsimp only [Gen.V]
  simp only [Gen.hostOps0, Gen.hostOps0_1, Gen.hostOps0_2, List.flatten_cons, List.flatten_nil, List.append_nil, List.cons_append, List.nil_append]
  after_results
  rfl

theorem V_w (c : Dev nD) : (V m c main_v1 : S1x2048.Idx → EReal)
    = shapeCast S1x2048 (m ((c : Thread nD τ).loc main_arg4)) shapeCasts_S64x16x2_S1x2048 := by
  dsimp only [Gen.V]
  simp only [Gen.hostOps0, Gen.hostOps0_1, Gen.hostOps0_2, List.flatten_cons, List.flatten_nil, List.append_nil, List.cons_append, List.nil_append]
  after_results
  rfl

theorem V_phi (c : Dev nD) : (V m c main_v2 : S1x2048.Idx → EReal)
    = shapeCast S1x2048 (m ((c : Thread nD τ).loc main_arg3)) shapeCasts_S64x16x2_S1x2048 := by
  dsimp only [Gen.V]
  simp only [Gen.hostOps0, Gen.hostOps0_1, Gen.hostOps0_2, List.flatten_cons, List.flatten_nil, List.append_nil, List.cons_append, List.nil_append]
  after_results
  rfl

theorem V_A (c : Dev nD) : (V m c main_v3 : S1x2048.Idx → EReal)
    = shapeCast S1x2048 (m ((c : Thread nD τ).loc main_arg2)) shapeCasts_S64x16x2_S1x2048 := by
  dsimp only [Gen.V]
  simp only [Gen.hostOps0, Gen.hostOps0_1, Gen.hostOps0_2, List.flatten_cons, List.flatten_nil, List.append_nil, List.cons_append, List.nil_append]
  after_results
  rfl

theorem V_b (c : Dev nD) : (V m c main_v4 : S1x64.Idx → EReal)
    = shapeCast S1x64 (m ((c : Thread nD τ).loc main_arg6)) shapeCasts_S64_S1x64 := by
  dsimp only [Gen.V]
  simp only [Gen.hostOps0, Gen.hostOps0_1, Gen.hostOps0_2, List.flatten_cons, List.flatten_nil, List.append_nil, List.cons_append, List.nil_append]
  after_results
  rfl

theorem V_comb (c : Dev nD) : (V m c main_v14 : S2048x64.Idx → EReal)
    = combOf (m ((c : Thread nD τ).loc main_arg5)) := by
  dsimp only [Gen.V]
  simp only [Gen.hostOps0, Gen.hostOps0_1, Gen.hostOps0_2, List.flatten_cons, List.flatten_nil, List.append_nil, List.cons_append, List.nil_append]
  after_results
  rfl

end Cert.Harmonic.Host

end
-- ==== Proof.Payload.lean ====
/-
  What one grid step of the kernel computes, read at an entry.

  A step receives a [512, 1] block of time points, the three [1, 2048] rows of frequencies, phases and amplitudes,
  the [2048, 64] mixing matrix and the [1, 64] bias row. It broadcasts them to [512, 2048], forms
  amplitude * cos (time * frequency + phase), contracts the 2048 columns with the mixing matrix into a zero
  accumulator (at exact values the narrowing of both operands changes nothing), and adds the bias row. So entry
  (p, e) of its result is the sum over the 2048 columns k of term (p, k) times mixing entry (k, e), plus bias e.
-/
import proofs.«118023_j77567109365841_1_alg».proof.Proof.Gen.KernelIdeal.Skeleton
import proofs.«118023_j77567109365841_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.Harmonic.Body

open Cert.KernelIdeal Cert.KernelIdeal.Gen Idealize.ShloMosaic Idealize.ShloMosaic.ValueIdx

theorem lhs0 (i : S512x64.Idx) (q : (dot_S512x2048_S2048x64_S512x64_1_0_0_1_n_n).contr.Idx) :
    ((dot_S512x2048_S2048x64_S512x64_1_0_0_1_n_n).lhsIdx i q 0).val = (i 0).val := by
  unfold DotDims.lhsIdx
  rw [dif_neg (show ¬(0 : Fin S512x2048.rank) ∈ (dot_S512x2048_S2048x64_S512x64_1_0_0_1_n_n).lhsBatch by decide),
    dif_pos (show (0 : Fin S512x2048.rank) ∈ (dot_S512x2048_S2048x64_S512x64_1_0_0_1_n_n).lhsNonContracting by decide)]
  rfl
theorem lhs1 (i : S512x64.Idx) (q : (dot_S512x2048_S2048x64_S512x64_1_0_0_1_n_n).contr.Idx) :
    ((dot_S512x2048_S2048x64_S512x64_1_0_0_1_n_n).lhsIdx i q 1).val = (q ⟨0, by decide⟩).val :=
  (dot_S512x2048_S2048x64_S512x64_1_0_0_1_n_n).lhsIdx_val_of_single rfl i q
theorem rhs0 (i : S512x64.Idx) (q : (dot_S512x2048_S2048x64_S512x64_1_0_0_1_n_n).contr.Idx) :
    ((dot_S512x2048_S2048x64_S512x64_1_0_0_1_n_n).rhsIdx i q 0).val = (q ⟨0, by decide⟩).val :=
  (dot_S512x2048_S2048x64_S512x64_1_0_0_1_n_n).rhsIdx_val_of_single rfl i q
theorem rhs1 (i : S512x64.Idx) (q : (dot_S512x2048_S2048x64_S512x64_1_0_0_1_n_n).contr.Idx) :
    ((dot_S512x2048_S2048x64_S512x64_1_0_0_1_n_n).rhsIdx i q 1).val = (i 1).val := by
  unfold DotDims.rhsIdx
  rw [dif_neg (show ¬(1 : Fin S2048x64.rank) ∈ (dot_S512x2048_S2048x64_S512x64_1_0_0_1_n_n).rhsBatch by decide),
    dif_pos (show (1 : Fin S2048x64.rank) ∈ (dot_S512x2048_S2048x64_S512x64_1_0_0_1_n_n).rhsNonContracting by decide)]
  rfl

/-- Entry `(p, e)` of a grid step's result, from the step's six input blocks. -/
theorem step_apply (x0 : FVec Ideal S512x1 .f32) (x1 x2 x3 : FVec Ideal S1x2048 .f32) (x4 : FVec Ideal S2048x64 .f32)
    (x5 : FVec Ideal S1x64 .f32) (p : Fin 512) (e : Fin 64) :
    k0_pay1 (F := Ideal) x0 x1 x2 x3 x4 x5 (ix2 p e)
      = (∑ k : Fin 2048, (x3 (ix2 (0 : Fin 1) k)
            * Ideal.cos (x0 (ix2 p (0 : Fin 1)) * x1 (ix2 (0 : Fin 1) k) + x2 (ix2 (0 : Fin 1) k))) * x4 (ix2 k e))
        + x5 (ix2 (0 : Fin 1) e) := by
  unfold k0_pay1
  simp only [shapeCast_self]
  show FloatOps.matmul dot_S512x2048_S2048x64_S512x64_1_0_0_1_n_n none _ _ (constant S512x64 .f32 0x00000000#32) (ix2 p e)
      + broadcastTo S512x64 x5 broadcasts_S1x64_S512x64 (ix2 p e) = _
  refine congrArg₂ (· + ·) ?_ (broadcastTo_1b_ab_apply x5 broadcasts_S1x64_S512x64 p e)
  rw [Ideal.matmul_constant_zero_apply,
    ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : (dot_S512x2048_S2048x64_S512x64_1_0_0_1_n_n).lhsIdx (ix2 p e)
      ((contrEquiv1 dot_S512x2048_S2048x64_S512x64_1_0_0_1_n_n 2048 rfl rfl).symm k) = ix2 p k :=
    funext fun a => Fin.ext (by
      match a with
      | ⟨0, _⟩ => exact lhs0 _ _
      | ⟨1, _⟩ => exact (lhs1 _ _).trans hk)
  have er : (dot_S512x2048_S2048x64_S512x64_1_0_0_1_n_n).rhsIdx (ix2 p e)
      ((contrEquiv1 dot_S512x2048_S2048x64_S512x64_1_0_0_1_n_n 2048 rfl rfl).symm k) = ix2 k e :=
    funext fun a => Fin.ext (by
      match a with
      | ⟨0, _⟩ => exact (rhs0 _ _).trans hk
      | ⟨1, _⟩ => exact rhs1 _ _)
  rw [el, er]
  show (broadcastTo S512x2048 x3 broadcasts_S1x2048_S512x2048 (ix2 p k)
      * Ideal.cos (broadcastTo S512x2048 x0 broadcasts_S512x1_S512x2048 (ix2 p k)
          * broadcastTo S512x2048 x1 broadcasts_S1x2048_S512x2048 (ix2 p k)
        + broadcastTo S512x2048 x2 broadcasts_S1x2048_S512x2048 (ix2 p k))) * x4 (ix2 k e) = _
  rw [broadcastTo_1b_ab_apply x3 broadcasts_S1x2048_S512x2048 p k, broadcastTo_1b_ab_apply x1 broadcasts_S1x2048_S512x2048 p k,
    broadcastTo_1b_ab_apply x2 broadcasts_S1x2048_S512x2048 p k,
    ColumnLayout.broadcastTo_a1_ab_apply x0 broadcasts_S512x1_S512x2048 p k]

end Cert.Harmonic.Body

end
-- ==== Proof.Step.lean ====
/-
  One grid step computes a block of the layer.

  A step's result at (p, e) is the sum over the 2048 columns k of amplitude k * cos (time p * frequency k + phase k)
  times mixing entry (k, e), plus bias e. When the step's blocks hold, at column d * 32 + (h * 2 + c), the amplitude,
  phase and frequency of harmonic (d, h, c), when its mixing entry (d * 32 + j, e) is W (e, d), its bias entry is b e
  and its time entry p is time point r, this is the layer at (r, e): the 2048 products regroup into 64 group sums,
  each distributed over its factor W (e, d), which is where the arguments being real numbers is used.
-/
import proofs.«118023_j77567109365841_1_alg».proof.Proof.Spec
import proofs.«118023_j77567109365841_1_alg».proof.Proof.Payload

noncomputable section

namespace Cert.Harmonic.Body

open Cert.KernelIdeal Cert.KernelIdeal.Gen Idealize.ShloMosaic Idealize.ShloMosaic.ValueIdx Cert.RealValued Cert.Harmonic

theorem step_eq_layer (s : FVec Ideal S32768 .f32) (A phi w : FVec Ideal S64x16x2 .f32) (W : FVec Ideal S64x64 .f32)
    (b : FVec Ideal S64 .f32)
    (hs : ∀ i, IsReal (s i)) (hA : ∀ i, IsReal (A i)) (hphi : ∀ i, IsReal (phi i)) (hw : ∀ i, IsReal (w i))
    (hW : ∀ i, IsReal (W i))
    (x0 : FVec Ideal S512x1 .f32) (x1 x2 x3 : FVec Ideal S1x2048 .f32) (x4 : FVec Ideal S2048x64 .f32)
    (x5 : FVec Ideal S1x64 .f32) (y : S512x64.Idx) (i : S32768x64.Idx)
    (hi : (i 1).val = (y 1).val)
    (h0 : x0 (ix2 (y 0) (0 : Fin 1)) = s (ix1 (i 0)))
    (h1 : ∀ d h c, x1 (ix2 (0 : Fin 1) (flat d h c)) = w (ix3 d h c))
    (h2 : ∀ d h c, x2 (ix2 (0 : Fin 1) (flat d h c)) = phi (ix3 d h c))
    (h3 : ∀ d h c, x3 (ix2 (0 : Fin 1) (flat d h c)) = A (ix3 d h c))
    (h4 : ∀ (d : Fin 64) (j : Fin 32) (e : Fin 64), x4 (ix2 (ChunkSum.at_ (by decide : 64 * 32 = 2048) d j) e) = W (ix2 e d))
    (h5 : ∀ e : Fin 64, x5 (ix2 (0 : Fin 1) e) = b (ix1 e)) :
    k0_pay1 (F := Ideal) x0 x1 x2 x3 x4 x5 y = layer s A phi w W b i := by
  obtain ⟨p, e, rfl⟩ : ∃ (p : Fin 512) (e : Fin 64), y = ix2 p e := ⟨y 0, y 1, eq_ix2 y⟩
  obtain ⟨r, e', rfl⟩ : ∃ (r : Fin 32768) (e' : Fin 64), i = ix2 r e' := ⟨i 0, i 1, eq_ix2 i⟩
  obtain rfl : e' = e := Fin.ext hi
  have h0' : x0 (ix2 p (0 : Fin 1)) = s (ix1 r) := h0
  rw [step_apply]
  show _ = (∑ d : Fin 64, (∑ h : Fin 16, ∑ c : Fin 2, term s A phi w r d h c) * W (ix2 e' d)) + b (ix1 e')
  rw [h5]
  refine congrArg (· + b (ix1 e')) ?_
  refine flat_eq_grouped (fun d h c => term s A phi w r d h c) (fun d => W (ix2 e' d))
    (fun d h c => isReal_term hs hA hphi hw r d h c) (fun d => hW _) _ (fun d h c => ?_)
  show (x3 (ix2 (0 : Fin 1) (flat d h c)) * Ideal.cos (x0 (ix2 p (0 : Fin 1)) * x1 (ix2 (0 : Fin 1) (flat d h c))
      + x2 (ix2 (0 : Fin 1) (flat d h c)))) * x4 (ix2 (flat d h c) e') = term s A phi w r d h c * W (ix2 e' d)
  rw [h3, h1, h2, h0', h4 d (ChunkSum.at_ (by decide : 16 * 2 = 32) h c) e']
  unfold term
  rw [mul_comm (s (ix1 r))]

end Cert.Harmonic.Body

end
-- ==== Proof.KernelValue.lean ====
/-
  The kernel's result array is the layer of its arguments.

  The grid has 64 steps; step t reads rows 512 t … 512 t + 511 of the time column and the whole of every other operand,
  and writes rows 512 t … 512 t + 511 of the result. Each input block is read off the array the host prepared, each
  step's result is the layer on its rows, and the 64 row blocks cover the result array.
-/
import proofs.«118023_j77567109365841_1_alg».proof.Proof.Gen.KernelIdeal.Value
import proofs.«118023_j77567109365841_1_alg».proof.Proof.HostSide
import proofs.«118023_j77567109365841_1_alg».proof.Proof.Step
import Idealize.ShloMosaic.Lib.Pipeline.Value

noncomputable section

namespace Cert.Harmonic.Kernel

open Cert.KernelIdeal Cert.KernelIdeal.Gen Cert.KernelIdeal.Value Idealize.ShloMosaic Idealize.ShloMosaic.TcCoe Idealize.SL.Sem
open Idealize.ShloMosaic.ValueIdx Cert.RealValued Cert.Harmonic Cert.Harmonic.Host Cert.Harmonic.Body
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid step: the time column and the result move down one block of rows per
    step, every other operand stays at its one block. -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The layer of the argument arrays as launched. -/
abbrev out (c : Dev nD) : S32768x64.Idx → EReal :=
  layer (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))

/-- The entries of the time points, amplitudes, phases, frequencies and mixing weights are real numbers. -/
def RealArgs (c : Dev nD) : Prop :=
  (∀ i, IsReal ((m ((c : Thread nD τ).loc main_arg0) : S32768.Idx → EReal) i))
  ∧ (∀ i, IsReal ((m ((c : Thread nD τ).loc main_arg2) : S64x16x2.Idx → EReal) i))
  ∧ (∀ i, IsReal ((m ((c : Thread nD τ).loc main_arg3) : S64x16x2.Idx → EReal) i))
  ∧ (∀ i, IsReal ((m ((c : Thread nD τ).loc main_arg4) : S64x16x2.Idx → EReal) i))
  ∧ (∀ i, IsReal ((m ((c : Thread nD τ).loc main_arg5) : S64x64.Idx → EReal) i))

/-! ## The input blocks, read off the arrays the launch finds -/

/-- Step `t`'s block of the time column is rows `512 t …` of it. -/
theorem blk_time (c : Dev nD) (t : Fin cfg0.N) (y : S512x1.Idx) (k : S32768x1.Idx)
    (hk0 : (k 0).val = t.val * 512 + (y 0).val) (hk1 : (k 1).val = (y 1).val) :
    (iblk m c 0 t : S512x1.Idx → EReal) y = (V m c main_v0 : S32768x1.Idx → EReal) k := by
  obtain ⟨-, -, e0, e1, -⟩ := idx_facts t
  unfold iblk
  rw [View.read_apply]
  refine congrArg (V m c main_v0 : S32768x1.Idx → EReal) (funext fun a => Fin.ext ?_)
  match a with
  | ⟨0, _⟩ => show win0_0.index t (0 : Fin 2) * 512 + 1 * (y 0).val = (k 0).val; rw [e0, hk0]; omega
  | ⟨1, _⟩ => show win0_0.index t (1 : Fin 2) * 1 + 1 * (y 1).val = (k 1).val; rw [e1, hk1]; omega

/-- Every step's block of the frequency row is the whole row. -/
theorem blk_w (c : Dev nD) (t : Fin cfg0.N) (y : S1x2048.Idx) :
    (iblk m c 1 t : S1x2048.Idx → EReal) y = (V m c main_v1 : S1x2048.Idx → EReal) y := by
  obtain ⟨-, -, -, -, e0, e1, -⟩ := idx_facts t
  unfold iblk
  rw [View.read_apply]
  refine congrArg (V m c main_v1 : S1x2048.Idx → EReal) (funext fun a => Fin.ext ?_)
  match a with
  | ⟨0, _⟩ => show win0_1.index t (0 : Fin 2) * 1 + 1 * (y 0).val = (y 0).val; rw [e0]; omega
  | ⟨1, _⟩ => show win0_1.index t (1 : Fin 2) * 2048 + 1 * (y 1).val = (y 1).val; rw [e1]; omega

/-- Every step's block of the phase row is the whole row. -/
theorem blk_phi (c : Dev nD) (t : Fin cfg0.N) (y : S1x2048.Idx) :
    (iblk m c 2 t : S1x2048.Idx → EReal) y = (V m c main_v2 : S1x2048.Idx → EReal) y := by
  obtain ⟨-, -, -, -, -, -, e0, e1, -⟩ := idx_facts t
  unfold iblk
  rw [View.read_apply]
  refine congrArg (V m c main_v2 : S1x2048.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

/-- Every step's block of the amplitude row is the whole row. -/
theorem blk_A (c : Dev nD) (t : Fin cfg0.N) (y : S1x2048.Idx) :
    (iblk m c 3 t : S1x2048.Idx → EReal) y = (V m c main_v3 : S1x2048.Idx → EReal) y := by
  obtain ⟨-, -, -, -, -, -, -, -, e0, e1, -⟩ := idx_facts t
  unfold iblk
  rw [View.read_apply]
  refine congrArg (V m c main_v3 : S1x2048.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 2048 + 1 * (y 1).val = (y 1).val; rw [e1]; omega

/-- Every step's block of the mixing matrix is the whole matrix. -/
theorem blk_comb (c : Dev nD) (t : Fin cfg0.N) (y : S2048x64.Idx) :
    (iblk m c 4 t : S2048x64.Idx → EReal) y = (V m c main_v14 : S2048x64.Idx → EReal) y := by
  obtain ⟨-, -, -, -, -, -, -, -, -, -, e0, e1, -⟩ := idx_facts t
  unfold iblk
  rw [View.read_apply]
  refine congrArg (V m c main_v14 : S2048x64.Idx → EReal) (funext fun a => Fin.ext ?_)
  match a with
  | ⟨0, _⟩ => show win0_4.index t (0 : Fin 2) * 2048 + 1 * (y 0).val = (y 0).val; rw [e0]; omega
  | ⟨1, _⟩ => show win0_4.index t (1 : Fin 2) * 64 + 1 * (y 1).val = (y 1).val; rw [e1]; omega

/-- Every step's block of the bias row is the whole row. -/
theorem blk_b (c : Dev nD) (t : Fin cfg0.N) (y : S1x64.Idx) :
    (iblk m c 5 t : S1x64.Idx → EReal) y = (V m c main_v4 : S1x64.Idx → EReal) y := by
  obtain ⟨-, -, -, -, -, -, -, -, -, -, -, -, e0, e1⟩ := idx_facts t
  unfold iblk
  rw [View.read_apply]
  refine congrArg (V m c main_v4 : S1x64.Idx → EReal) (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-! ## What a step writes back, the cover, the array, the run -/

/-- Step `t` writes back block `t` of the layer. -/
theorem flushed_eq (c : Dev nD) (hR : RealArgs m c) (t : Fin cfg0.N) :
    (dats m 0 c).flushed 6 t = ((cfg0.win 6).blk t).view.read (Elt Ideal) (out m c) := by
  rw [Value.flushed6]
  unfold out0_6
  rw [View.canon_unit_zero hz]
  simp only [View.ld_unit_zero (S := S512x1) hz, View.ld_unit_zero (S := S1x2048) hz, View.ld_unit_zero (S := S2048x64) hz,
    View.ld_unit_zero (S := S1x64) hz]
  obtain ⟨e60, e61, -⟩ := idx_facts t
  obtain ⟨hs, hA, hphi, hw, hW⟩ := hR
  funext j
  show k0_pay1 (F := Ideal) (iblk m c 0 t) (iblk m c 1 t) (iblk m c 2 t) (iblk m c 3 t) (iblk m c 4 t) (iblk m c 5 t) j
    = out m c (((cfg0.win 6).blk t).view.emb j)
  refine step_eq_layer _ _ _ _ _ _ hs hA hphi hw hW (iblk m c 0 t) (iblk m c 1 t) (iblk m c 2 t) (iblk m c 3 t)
    (iblk m c 4 t) (iblk m c 5 t) j (((cfg0.win 6).blk t).view.emb j) ?_ ?_ ?_ ?_ ?_ ?_ ?_
  · show win0_6.index t (1 : Fin 2) * 64 + 1 * (j 1).val = (j 1).val
    rw [e61]; omega
  · refine (blk_time m c t _ (ix2 ((((cfg0.win 6).blk t).view.emb j) 0) (0 : Fin 1)) ?_ rfl).trans ?_
    · show win0_6.index t (0 : Fin 2) * 512 + 1 * (j 0).val = t.val * 512 + (j 0).val
      rw [e60]; omega
    · rw [V_s]
      exact ColumnLayout.shapeCast_a_a1_apply _ _ _ _
  · intro d h c'
    refine (blk_w m c t _).trans ?_
    rw [V_w]
    exact row_flat _ _ d h c'
  · intro d h c'
    refine (blk_phi m c t _).trans ?_
    rw [V_phi]
    exact row_flat _ _ d h c'
  · intro d h c'
    refine (blk_A m c t _).trans ?_
    rw [V_A]
    exact row_flat _ _ d h c'
  · intro d j' e
    refine (blk_comb m c t _).trans ?_
    rw [V_comb]
    exact combOf_apply _ d j' e
  · intro e
    refine (blk_b m c t _).trans ?_
    rw [V_b]
    exact shapeCast_a_1a_apply _ _ 0 e

/-- An index of the result array is in step `t`'s block iff each coordinate is in the block's range. -/
theorem mem_blk (t : Fin cfg0.N) (i : S32768x64.Idx) :
    i ∈ ((cfg0.win 6).blk t).view.set ↔ ∀ a : Fin 2, win0_6.index t a * S512x64.size a ≤ (i a).val
      ∧ (i a).val < win0_6.index t a * S512x64.size a + S512x64.size a := by
  show i ∈ ((View.whole main_v15).slice (win0_6.rect t)).set ↔ _
  rw [View.set_slice_whole, Rect.mem_set_unit]
  exact Iff.rfl

/-- Row `r` of the result is in the block of step `r / 512`. -/
theorem cover (i : S32768x64.Idx) :
    ∃ t : Fin cfg0.N, (cfg0.win 6).flush t = true ∧ i ∈ ((cfg0.win 6).blk t).view.set := by
  have hN : cfg0.N = 64 := N_0
  have hi0 : (i 0).val < 32768 := (i 0).isLt
  have hi1 : (i 1).val < 64 := (i 1).isLt
  have ht : (i 0).val / 512 < cfg0.N := by rw [hN]; omega
  obtain ⟨e60, e61, -⟩ := idx_facts ⟨(i 0).val / 512, ht⟩
  have e60' : win0_6.index ⟨(i 0).val / 512, ht⟩ (0 : Fin 2) = (i 0).val / 512 := e60
  refine ⟨⟨(i 0).val / 512, ht⟩, flush0_6 _, ?_⟩
  rw [mem_blk]
  intro a
  match a with
  | ⟨0, _⟩ =>
    show win0_6.index ⟨(i 0).val / 512, ht⟩ (0 : Fin 2) * 512 ≤ (i 0).val
      ∧ (i 0).val < win0_6.index ⟨(i 0).val / 512, ht⟩ (0 : Fin 2) * 512 + 512
    rw [e60']; omega
  | ⟨1, _⟩ =>
    show win0_6.index ⟨(i 0).val / 512, ht⟩ (1 : Fin 2) * 64 ≤ (i 1).val
      ∧ (i 1).val < win0_6.index ⟨(i 0).val / 512, ht⟩ (1 : Fin 2) * 64 + 64
    rw [e61]; omega

/-- After the run the result array holds the layer of the arguments. -/
theorem final (c : Dev nD) (hR : RealArgs m c) : (dats m 0 c).arrAt 6 cfg0.N = out m c :=
  (dats m 0 c).arrAt_eq_of_cover 6 (out m c) (fun t _ => flushed_eq m c hR t) cover

/-- The kernel's run: it terminates with the result array at the layer of the arguments and the arguments unchanged. -/
theorem run (hR : ∀ c, RealArgs m c) :
    θ_run defs (onTc (τ := τ) (main (F := Ideal))) ⟨m, fun _ => 0, ρ⟩ fun r => ∀ c : Dev nD,
      r.2.mem ((c : Thread nD τ).loc main_v15) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hR c)), (h c).2⟩) (Value.run_blocks m ρ)

end Cert.Harmonic.Kernel

end
-- ==== Proof.RefValue.lean ====
/-
  The reference computes the layer.

  Read one operation at a time, the reference forms the 4-dimensional array of harmonic terms
  (time point, system, harmonic, component), sums it over its last two axes starting from zero, contracts the
  resulting [32768, 64] array of group sums with the transpose of W over the system axis, and adds the bias
  broadcast along the time axis. The sum over the last two axes, at (r, d), collects exactly the entries
  (r, d, h, c): they are in bijection with the pairs (h, c).
-/
import proofs.«118023_j77567109365841_1_alg».proof.Proof.Gen.ReferenceIdeal.Read
import proofs.«118023_j77567109365841_1_alg».proof.Proof.Spec
import Idealize.ShloMosaic.PureOps.Ideal.Laws

noncomputable section

namespace Cert.Harmonic.Ref

open Cert.ReferenceIdeal Cert.ReferenceIdeal.Gen Cert.ReferenceIdeal.Read Idealize.ShloMosaic Idealize.ShloMosaic.ValueIdx
open Cert.Harmonic

/-- A sum over the last two axes of a [32768, 64, 16, 2] array, at (r, d): the initial value plus the double sum
    over (h, c) of the entries (r, d, h, c). -/
theorem groupSum (h' : S32768x64x16x2.ReducesTo [2, 3] S32768x64) (x : S32768x64x16x2.Idx → EReal) (init : EReal)
    (r : Fin 32768) (d : Fin 64) :
    Ideal.hostReduceAdd h' x init (ix2 r d) = init + ∑ h : Fin 16, ∑ c : Fin 2, x (ix4 r d h c) := by
  have d0 : ∀ i : S32768x64x16x2.Idx, ((h'.drop i) 0).val = (i 0).val :=
    fun i => Shape.ReducesTo.drop_apply_val_of_eq h' i 0 0
  have d1 : ∀ i : S32768x64x16x2.Idx, ((h'.drop i) 1).val = (i 1).val :=
    fun i => Shape.ReducesTo.drop_apply_val_of_eq h' i 1 1
  unfold Ideal.hostReduceAdd
  refine congrArg (init + ·) ?_
  rw [← Finset.sum_product']
  refine Finset.sum_nbij' (fun i => (i 2, i 3)) (fun p => ix4 r d p.1 p.2) ?_ ?_ ?_ ?_ ?_
  · intro i _; exact Finset.mem_product.mpr ⟨Finset.mem_univ _, Finset.mem_univ _⟩
  · intro p _
    refine Finset.mem_filter.mpr ⟨Finset.mem_univ _, funext fun b => Fin.ext ?_⟩
    match b with
    | ⟨0, _⟩ => exact d0 _
    | ⟨1, _⟩ => exact d1 _
  · intro i hi
    have e := (Finset.mem_filter.mp hi).2
    have e0 : i 0 = r := Fin.ext ((d0 i).symm.trans (congrArg (fun j : S32768x64.Idx => (j 0).val) e))
    have e1 : i 1 = d := Fin.ext ((d1 i).symm.trans (congrArg (fun j : S32768x64.Idx => (j 1).val) e))
    show ix4 r d (i 2) (i 3) = i
    rw [← e0, ← e1]
    exact (eq_ix4 i).symm
  · intro p _; rfl
  · intro i hi
    have e := (Finset.mem_filter.mp hi).2
    have e0 : i 0 = r := Fin.ext ((d0 i).symm.trans (congrArg (fun j : S32768x64.Idx => (j 0).val) e))
    have e1 : i 1 = d := Fin.ext ((d1 i).symm.trans (congrArg (fun j : S32768x64.Idx => (j 1).val) e))
    show x i = x (ix4 r d (i 2) (i 3))
    rw [← e0, ← e1]
    exact congrArg x (eq_ix4 i)

/-- The reference's array of harmonic terms, at (r, d, h, c), is harmonic term (d, h, c) at time point r. -/
theorem harm (x0 : S32768.Idx → EReal) (x2 x3 x4 : S64x16x2.Idx → EReal) (r : Fin 32768) (d : Fin 64) (h : Fin 16) (c : Fin 2) :
    val_main_v11 (F := Ideal) x0 x2 x3 x4 (ix4 r d h c) = term x0 x2 x3 x4 r d h c := by
  have i8 : idx_main_v8 (idx_main_v10 (ix4 r d h c)) = ix3 d h c :=
    funext fun a => Fin.ext (by match a with | ⟨0, _⟩ => rfl | ⟨1, _⟩ => rfl | ⟨2, _⟩ => rfl)
  have i0 : idx_main_v0 (idx_main_v2 (ix4 r d h c)) = ix3 d h c :=
    funext fun a => Fin.ext (by match a with | ⟨0, _⟩ => rfl | ⟨1, _⟩ => rfl | ⟨2, _⟩ => rfl)
  have i5 : idx_main_v5 (idx_main_v6 (ix4 r d h c)) = ix3 d h c :=
    funext fun a => Fin.ext (by match a with | ⟨0, _⟩ => rfl | ⟨1, _⟩ => rfl | ⟨2, _⟩ => rfl)
  have i1 : idx_main_v1 (idx_main_v3 (ix4 r d h c)) = ix1 r :=
    funext fun a => Fin.ext (by match a with | ⟨0, _⟩ => rfl)
  rw [val_main_v11_apply, val_main_v10_apply, val_main_v8_apply, val_main_v9_apply, val_main_v7_apply, val_main_v4_apply,
    val_main_v2_apply, val_main_v0_apply, val_main_v3_apply, val_main_v1_apply, val_main_v6_apply, val_main_v5_apply,
    i8, i0, i5, i1]
  rfl

/-- The reference's result is the layer of its arguments. -/
theorem result_eq (x0 : S32768.Idx → EReal) (x2 x3 x4 : S64x16x2.Idx → EReal) (x5 : S64x64.Idx → EReal) (x6 : S64.Idx → EReal) :
    val_main_v17 (F := Ideal) x0 x2 x3 x4 x5 x6 = layer x0 x2 x3 x4 x5 x6 := by
  funext i
  obtain ⟨r, e, rfl⟩ : ∃ (r : Fin 32768) (e : Fin 64), i = ix2 r e := ⟨i 0, i 1, eq_ix2 i⟩
  have il : ∀ k : Fin 64, lidx_main_v14 (ix2 r e) k = ix2 r k :=
    fun k => funext fun a => Fin.ext (by match a with | ⟨0, _⟩ => rfl | ⟨1, _⟩ => rfl)
  have ir : ∀ k : Fin 64, idx_main_v13 (ridx_main_v14 (ix2 r e) k) = ix2 e k :=
    fun k => funext fun a => Fin.ext (by match a with | ⟨0, _⟩ => rfl | ⟨1, _⟩ => rfl)
  have ib : idx_main_v15 (idx_main_v16 (ix2 r e)) = ix1 e :=
    funext fun a => Fin.ext (by match a with | ⟨0, _⟩ => rfl)
  have g : ∀ k : Fin 64, val_main_v12 (F := Ideal) x0 x2 x3 x4 (ix2 r k)
      = ∑ h : Fin 16, ∑ c : Fin 2, term x0 x2 x3 x4 r k h c := by
    intro k
    unfold val_main_v12
    show Ideal.hostReduceAdd _ _ (Ideal.ofBits .f32 0x00000000#32) (ix2 r k) = _
    rw [groupSum, Ideal.ofBits_zero_f32, zero_add]
    exact Finset.sum_congr rfl fun h _ => Finset.sum_congr rfl fun c _ => harm x0 x2 x3 x4 r k h c
  rw [val_main_v17_apply, val_main_v14_apply, val_main_v16_apply, val_main_v15_apply, ib]
  show (∑ k : Fin 64, _ * _) + _ = _
  simp only [il, g, val_main_v13_apply, ir]
  rfl

end Cert.Harmonic.Ref

end
-- ==== Proof.Finite.lean ====
/-
  The precondition read back: every entry of the time points, amplitudes, phases, frequencies and mixing weights is a
  real number.

  The precondition is the conjunction, over the seven float arguments, of "every entry has absolute value below
  +infinity". Taking the conjunction apart gives one such statement per argument, and an extended real whose absolute
  value is below +infinity is a real number.
-/
import proofs.«118023_j77567109365841_1_alg».proof.Pre_finite_inputs
import proofs.«118023_j77567109365841_1_alg».proof.Proof.Gen.Pre_finite_inputs
import proofs.«118023_j77567109365841_1_alg».proof.Proof.LibRealValued
import Idealize.ShloMosaic.Lib.Affine
import Idealize.ShloMosaic.Lib.ReduceAll

noncomputable section

namespace Cert.Harmonic.Finite

open Idealize.ShloMosaic Idealize.ShloMosaic.ValueIdx Cert.RealValued Cert.Pre_finite_inputs

/-- Under the precondition the entries of arguments 0 (time points), 2 (amplitudes), 3 (phases), 4 (frequencies) and
    5 (mixing weights) are real numbers. -/
theorem reals_of_pre (a0 : FVec Ideal S32768 .f32) (a1 : FVec Ideal S32768x64 .f32) (a2 a3 a4 : FVec Ideal S64x16x2 .f32)
    (a5 : FVec Ideal S64x64 .f32) (a6 : FVec Ideal S64 .f32)
    (h : Cert.Pre_finite_inputs.fn (F := Ideal) a0 a1 a2 a3 a4 a5 a6 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ix0
  dsimp only [Cert.Pre_finite_inputs.fn, Cert.Pre_finite_inputs.fn_part1] at h0
  obtain ⟨h1, e6⟩ := IntOp.andi_eq_one.1 h0
  obtain ⟨h2, e5⟩ := IntOp.andi_eq_one.1 h1
  obtain ⟨h3, e4⟩ := IntOp.andi_eq_one.1 h2
  obtain ⟨h4, e3⟩ := IntOp.andi_eq_one.1 h3
  obtain ⟨h5, e2⟩ := IntOp.andi_eq_one.1 h4
  obtain ⟨e0, e1⟩ := IntOp.andi_eq_one.1 h5
  exact ⟨all_isReal a0 _ _ _ _ e0, all_isReal a2 _ _ _ _ e2, all_isReal a3 _ _ _ _ e3, all_isReal a4 _ _ _ _ e4,
    all_isReal a5 _ _ _ _ e5⟩

end Cert.Harmonic.Finite

end
-- ==== Proof.lean ====
/-
  A harmonic mixing layer, computed two ways, gives one result on the extended reals when its inputs are finite.

  For 32768 time points s r, 64 systems of 16 * 2 harmonics with amplitudes A, phases phi and frequencies w, a 64-by-64
  mixing matrix W and a bias b, the layer is

      out (r, e) = sum over d of ( sum over (h, c) of A (d,h,c) * cos (w (d,h,c) * s r + phi (d,h,c)) ) * W (e, d)  +  b e.

  The reference forms the group sums first and then contracts them with the transpose of W. The kernel lays the
  64 * 32 harmonic terms of a time point out in one row of 2048, and contracts that row with a [2048, 64] matrix the host
  prepares: the product of (identity of 64) Kronecker (a column of 32 ones) with the transpose of W, whose entry
  (d * 32 + j, e) is W (e, d). It does so for 512 time points per grid step, 64 steps covering the 32768 rows.

  The two agree because a group sum times its factor is the sum of the products: (sum of a_j) * W = sum of (a_j * W).
  On the extended reals this needs the a_j not to be opposite infinities. Under the precondition every input entry is
  a real number, the cosine of a real number is a real number, so every harmonic term and every factor is real and
  the law holds. Everything else (commuting a product, regrouping a finite sum into consecutive chunks, picking an
  entry by a row of the identity) holds on all extended reals. Narrowing the matrix product's operands to sixteen bits
  is the identity at exact values, and the two cosines (the kernel's and the host's) are one function.

  The kernel's frames are the generated ones; the reference's frame is its generated run with the result dropped; no
  operation was rewritten when the kernel was read at exact values, so that conjunct is trivial.
-/
import proofs.«118023_j77567109365841_1_alg».proof.Defs
import proofs.«118023_j77567109365841_1_alg».proof.Proof.Gen.Kernel
import proofs.«118023_j77567109365841_1_alg».proof.Proof.Gen.Kernel.Skeleton
import proofs.«118023_j77567109365841_1_alg».proof.Proof.Gen.Kernel.Launch
import proofs.«118023_j77567109365841_1_alg».proof.Proof.Gen.Kernel.Points
import proofs.«118023_j77567109365841_1_alg».proof.Proof.Gen.Kernel.Frame
import proofs.«118023_j77567109365841_1_alg».proof.Proof.Gen.KernelIdeal
import proofs.«118023_j77567109365841_1_alg».proof.Proof.Gen.KernelIdeal.Skeleton
import proofs.«118023_j77567109365841_1_alg».proof.Proof.Gen.KernelIdeal.Launch
import proofs.«118023_j77567109365841_1_alg».proof.Proof.Gen.KernelIdeal.Points
import proofs.«118023_j77567109365841_1_alg».proof.Proof.Gen.KernelIdeal.Frame
import proofs.«118023_j77567109365841_1_alg».proof.Proof.Gen.ReferenceIdeal
import proofs.«118023_j77567109365841_1_alg».proof.Proof.Gen.Pre_finite_inputs
import proofs.«118023_j77567109365841_1_alg».proof.Proof.Gen.KernelIdeal.Value
import proofs.«118023_j77567109365841_1_alg».proof.Proof.Gen.ReferenceIdeal.Run
import proofs.«118023_j77567109365841_1_alg».proof.Proof.Gen.ReferenceIdeal.Read
import proofs.«118023_j77567109365841_1_alg».proof.Proof.KernelValue
import proofs.«118023_j77567109365841_1_alg».proof.Proof.RefValue
import proofs.«118023_j77567109365841_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read at exact values. -/
theorem preserves : Cert.preserves_Kernel_KernelIdeal := trivial

/-- From memories that agree on the arguments, the kernel's result array and the reference's both end holding the layer
    of the arguments: the kernel's by its 64 row blocks, each regrouped by the distributive law (the arguments are real
    numbers by the precondition), the reference's by reading its operations in order. -/
theorem algebraic : Cert.algebraic_KernelIdeal_ReferenceIdeal := by
  intro m ρ m' ρ' hpre hagree
  have hR : ∀ c, Cert.Harmonic.Kernel.RealArgs m c :=
    fun c => Cert.Harmonic.Finite.reals_of_pre _ _ _ _ _ _ _ (hpre c)
  refine ⟨fun c => Cert.Harmonic.Kernel.out m c, Cert.Harmonic.Kernel.run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Harmonic.Ref.result_eq]
  obtain ⟨a0, -, a2, a3, a4, a5, a6⟩ := hagree c
  rw [a0, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
